-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v66)) (v1 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_v48) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x16 : Shape := ⟨2, ![512, 16]⟩
abbrev S16 : Shape := ⟨1, ![16]⟩
abbrev S16x6 : Shape := ⟨2, ![16, 6]⟩
abbrev S6 : Shape := ⟨1, ![6]⟩
abbrev S3200000 : Shape := ⟨1, ![3200000]⟩
abbrev S2x3200000 : Shape := ⟨2, ![2, 3200000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x6 : S_.BroadcastsInDim S16x6 (![] : Fin 0 → Fin S16x6.rank)
  reducesTo_S16x6_S_d0_1 : S16x6.ReducesTo [0, 1] S_
  bcast_S_S6 : S_.BroadcastsInDim S6 (![] : Fin 0 → Fin S6.rank)
  reducesTo_S6_S_d0 : S6.ReducesTo [0] S_
  bcast_S_S3200000 : S_.BroadcastsInDim S3200000 (![] : Fin 0 → Fin S3200000.rank)
  reducesTo_S3200000_S_d0 : S3200000.ReducesTo [0] S_

variable [Facts]

def fn_part1 {F : FTy → Type} [FloatOps F] (main_arg4 : FVec F S6 .f32) (main_arg5 : FVec F S3200000 .f32) (main_v13 : IVec S_ 1) (main_v16 : IVec S16x6 1) : IVec S_ 1 :=
  let main_c_5 : IVec S_ 1 := constantI S_ 1 1#1
  let main_v17 : IVec S_ 1 := (fun x v => Host.reduce IntOp.andi x v reducesTo_S16x6_S_d0_1 h_S_) main_v16 main_c_5
  let main_v18 : IVec S_ 1 := andi main_v13 main_v17
  let main_v19 : FVec F S6 .f32 := Host.absf main_arg4
  let main_cst_6 : FVec F S_ .f32 := constant S_ .f32 0x7F800000#32
  let main_v20 : FVec F S6 .f32 := broadcastInDim S6 ![] bcast_S_S6 main_cst_6
  let main_v21 : IVec S6 1 := cmpf .olt main_v19 main_v20
  let main_c_7 : IVec S_ 1 := constantI S_ 1 1#1
  let main_v22 : IVec S_ 1 := (fun x v => Host.reduce IntOp.andi x v reducesTo_S6_S_d0 h_S_) main_v21 main_c_7
  let main_v23 : IVec S_ 1 := andi main_v18 main_v22
  let main_v24 : FVec F S3200000 .f32 := Host.absf main_arg5
  let main_cst_8 : FVec F S_ .f32 := constant S_ .f32 0x7F800000#32
  let main_v25 : FVec F S3200000 .f32 := broadcastInDim S3200000 ![] bcast_S_S3200000 main_cst_8
  let main_v26 : IVec S3200000 1 := cmpf .olt main_v24 main_v25
  let main_c_9 : IVec S_ 1 := constantI S_ 1 1#1
  let main_v27 : IVec S_ 1 := (fun x v => Host.reduce IntOp.andi x v reducesTo_S3200000_S_d0 h_S_) main_v26 main_c_9
  let main_v28 : IVec S_ 1 := andi main_v23 main_v27
  main_v28

def fn {F : FTy → Type} [FloatOps F] (main_arg0 : FVec F S100000x512 .f32) (main_arg1 : FVec F S512x16 .f32) (main_arg2 : FVec F S16 .f32) (main_arg3 : FVec F S16x6 .f32) (main_arg4 : FVec F S6 .f32) (main_arg5 : FVec F S3200000 .f32) (main_arg6 : IVec S2x3200000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg1
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x6 .f32 := Host.absf main_arg3
  let main_cst_4 : FVec F S_ .f32 := constant S_ .f32 0x7F800000#32
  let main_v15 : FVec F S16x6 .f32 := broadcastInDim S16x6 ![] bcast_S_S16x6 main_cst_4
  let main_v16 : IVec S16x6 1 := cmpf .olt main_v14 main_v15
  fn_part1 (F := F) main_arg4 main_arg5 main_v13 main_v16
-- ==== Kernel.lean ====
abbrev S100000x512 : Shape := ⟨2, ![100000, 512]⟩
abbrev S512x16 : Shape := ⟨2, ![512, 16]⟩
abbrev S16 : Shape := ⟨1, ![16]⟩
abbrev S16x6 : Shape := ⟨2, ![16, 6]⟩
abbrev S6 : Shape := ⟨1, ![6]⟩
abbrev S3200000 : Shape := ⟨1, ![3200000]⟩
abbrev S2x3200000 : Shape := ⟨2, ![2, 3200000]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x512 : Shape := ⟨2, ![5000, 512]⟩
abbrev S5000x16 : Shape := ⟨2, ![5000, 16]⟩
abbrev S3300000x16 : Shape := ⟨2, ![3300000, 16]⟩
abbrev S1x16 : Shape := ⟨2, ![1, 16]⟩
abbrev S100000x6 : Shape := ⟨2, ![100000, 6]⟩
abbrev S10000x16 : Shape := ⟨2, ![10000, 16]⟩
abbrev S10000x6 : Shape := ⟨2, ![10000, 6]⟩
abbrev S3300000x6 : Shape := ⟨2, ![3300000, 6]⟩
abbrev S1x6 : Shape := ⟨2, ![1, 6]⟩
abbrev S100000x1 : Shape := ⟨2, ![100000, 1]⟩

abbrev nBuf : Space → Nat
  | .hbm => 104
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S512x16, .f32⟩
  | .hbm, ⟨2, _⟩ => ⟨S16, .f32⟩
  | .hbm, ⟨3, _⟩ => ⟨S16x6, .f32⟩
  | .hbm, ⟨4, _⟩ => ⟨S6, .f32⟩
  | .hbm, ⟨5, _⟩ => ⟨S3200000, .f32⟩
  | .hbm, ⟨6, _⟩ => ⟨S2x3200000, .i32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S3300000x1, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x16, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S100000x6, .f32⟩
  | .hbm, ⟨70, _⟩ => ⟨S3300000x1, .f32⟩
  | .hbm, ⟨71, _⟩ => ⟨S_, .i32⟩
  | .hbm, ⟨72, _⟩ => ⟨S3300000, .i32⟩
  | .hbm, ⟨73, _⟩ => ⟨S3300000, .i1⟩
  | .hbm, ⟨74, _⟩ => ⟨S_, .i32⟩
  | .hbm, ⟨75, _⟩ => ⟨S3300000, .i32⟩
  | .hbm, ⟨76, _⟩ => ⟨S3300000, .i32⟩
  | .hbm, ⟨77, _⟩ => ⟨S3300000, .i32⟩
  | .hbm, ⟨78, _⟩ => ⟨S3300000x1, .i32⟩
  | .hbm, ⟨79, _⟩ => ⟨S3300000x6, .f32⟩
  | .hbm, ⟨80, _⟩ => ⟨S3300000x6, .f32⟩
  | .hbm, ⟨81, _⟩ => ⟨S3300000x6, .f32⟩
  | .hbm, ⟨82, _⟩ => ⟨S_, .f32⟩
  | .hbm, ⟨83, _⟩ => ⟨S100000x6, .f32⟩
  | .hbm, ⟨84, _⟩ => ⟨S3300000x1, .i32⟩
  | .hbm, ⟨85, _⟩ => ⟨S100000x6, .f32⟩
  | .hbm, ⟨86, _⟩ => ⟨S1x6, .f32⟩
  | .hbm, ⟨87, _⟩ => ⟨S100000x6, .f32⟩
  | .hbm, ⟨88, _⟩ => ⟨S100000x6, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x6, .f32⟩
  | .hbm, ⟨96, _⟩ => ⟨S100000x6, .f32⟩
  | .hbm, ⟨97, _⟩ => ⟨S100000x6, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x6, .f32⟩
  | .hbm, ⟨103, _⟩ => ⟨S100000x6, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S10000x16, .f32⟩
  | .local _ .vmem, ⟨6, _⟩ => ⟨S10000x16, .f32⟩
  | .local _ .vmem, ⟨7, _⟩ => ⟨S16x6, .f32⟩
  | .local _ .vmem, ⟨8, _⟩ => ⟨S10000x6, .f32⟩
  | .local _ .vmem, ⟨9, _⟩ => ⟨S10000x6, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_9 : Ref sig .tc := ⟨.hbm, 71, rfl⟩
abbrev main_v51 : Ref sig .tc := ⟨.hbm, 72, rfl⟩
abbrev main_v52 : Ref sig .tc := ⟨.hbm, 73, rfl⟩
abbrev main_c_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_call1_cst : Ref sig .tc := ⟨.hbm, 89, rfl⟩
abbrev main_call1_v0 : Ref sig .tc := ⟨.hbm, 90, rfl⟩
abbrev main_call1_cst_0 : Ref sig .tc := ⟨.hbm, 91, rfl⟩
abbrev main_call1_v1 : Ref sig .tc := ⟨.hbm, 92, rfl⟩
abbrev main_call1_v2 : Ref sig .tc := ⟨.hbm, 93, rfl⟩
abbrev main_call1_v3 : Ref sig .tc := ⟨.hbm, 94, rfl⟩
abbrev main_call1_v4 : Ref sig .tc := ⟨.hbm, 95, rfl⟩
abbrev main_call1_v5 : Ref sig .tc := ⟨.hbm, 96, rfl⟩
abbrev main_call1_v6 : Ref sig .tc := ⟨.hbm, 97, rfl⟩
abbrev main_call1_cst_1 : Ref sig .tc := ⟨.hbm, 98, rfl⟩
abbrev main_call1_v7 : Ref sig .tc := ⟨.hbm, 99, rfl⟩
abbrev main_call1_v8 : Ref sig .tc := ⟨.hbm, 100, rfl⟩
abbrev main_call1_v9 : Ref sig .tc := ⟨.hbm, 101, rfl⟩
abbrev main_call1_v10 : Ref sig .tc := ⟨.hbm, 102, rfl⟩
abbrev main_v66 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x6 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x6 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S16x6_S16x6_0_0 : ∀ a, (![0, 0] : Fin 2 → Nat) a + S16x6.size a ≤ S16x6.size a
  h_S16x6 : 0 < S16x6.numel
  inb_S10000x6_S10000x6_0_0 : ∀ a, (![0, 0] : Fin 2 → Nat) a + S10000x6.size a ≤ S10000x6.size a
  h_S10000x6 : 0 < S10000x6.numel
  bcast_S3300000x1_S3300000x6_0_1 : S3300000x1.BroadcastsInDim S3300000x6 (![0, 1] : Fin 2 → Fin S3300000x6.rank)
  bcast_S_S100000x6 : S_.BroadcastsInDim S100000x6 (![] : Fin 0 → Fin S100000x6.rank)
  bcast_S6_S1x6_1 : S6.BroadcastsInDim S1x6 (![1] : Fin 1 → Fin S1x6.rank)
  bcast_S1x6_S100000x6_0_1 : S1x6.BroadcastsInDim S100000x6 (![0, 1] : Fin 2 → Fin S100000x6.rank)
  reducesTo_S100000x6_S100000_d1 : S100000x6.ReducesTo [1] S100000
  h_S_ : 0 < S_.numel
  bcast_S100000_S100000x1_0 : S100000.BroadcastsInDim S100000x1 (![0] : Fin 1 → Fin S100000x1.rank)
  bcast_S100000x1_S100000x6_0_1 : S100000x1.BroadcastsInDim S100000x6 (![0, 1] : Fin 2 → Fin S100000x6.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x512_S512x16_S5000x16_1_0_0_1_n_n_wf : DotDims.WF S5000x512 S512x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x6_S10000x6_1_0_0_1_n_n_wf : DotDims.WF S10000x16 S16x6 S10000x6 [1] [0] [0] [1] [] []
  gather_S100000x6_S3300000x1_S3300000x6_1_0_n_n_0_1_16_wf : GatherDims.WF S100000x6 S3300000x1 S3300000x6 [1] [0] [] [0] [] 1 ![1, 6]
  scatter_S100000x6_S3300000x1_S3300000x6_1_0_0_1_wf : ScatterDims.WF S100000x6 S3300000x1 S3300000x6 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x6.size a ≤ S16x6.size a
  hwx1_1 : ∀ i : grid1.Coords, EltTy.bits .f32 = 32 ∨ (Rect.block (s := S16x6) S16x6.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x6.size a ≤ S100000x6.size a
  hwx1_2 : ∀ i : grid1.Coords, EltTy.bits .f32 = 32 ∨ (Rect.block (s := S100000x6) S10000x6.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x6_S10000x6_1_0_0_1_n_n : DotDims S10000x16 S16x6 S10000x6 where
  lhsContracting := [1]
  rhsContracting := [0]
  lhsNonContracting := [0]
  rhsNonContracting := [1]
  lhsBatch := []
  rhsBatch := []
  wf := dot_S10000x16_S16x6_S10000x6_1_0_0_1_n_n_wf
def gather_S100000x6_S3300000x1_S3300000x6_1_0_n_n_0_1_16 : GatherDims S100000x6 S3300000x1 S3300000x6 where
  offsetDims := [1]
  collapsedSliceDims := [0]
  operandBatchingDims := []
  startIndicesBatchingDims := []
  startIndexMap := [0]
  indexVectorDim := 1
  sliceSizes := ![1, 6]
  wf := gather_S100000x6_S3300000x1_S3300000x6_1_0_n_n_0_1_16_wf
def scatter_S100000x6_S3300000x1_S3300000x6_1_0_0_1 : ScatterDims S100000x6 S3300000x1 S3300000x6 where
  updateWindowDims := [1]
  insertedWindowDims := [0]
  scatterDimsToOperandDims := [0]
  indexVectorDim := 1
  wf := scatter_S100000x6_S3300000x1_S3300000x6_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S16x6.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S10000x6.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S512x16 : Shape := ⟨2, ![512, 16]⟩
abbrev S16 : Shape := ⟨1, ![16]⟩
abbrev S16x6 : Shape := ⟨2, ![16, 6]⟩
abbrev S6 : Shape := ⟨1, ![6]⟩
abbrev S3200000 : Shape := ⟨1, ![3200000]⟩
abbrev S2x3200000 : Shape := ⟨2, ![2, 3200000]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x6 : Shape := ⟨2, ![100000, 6]⟩
abbrev S3300000x6 : Shape := ⟨2, ![3300000, 6]⟩
abbrev S1x6 : Shape := ⟨2, ![1, 6]⟩
abbrev S100000x1 : Shape := ⟨2, ![100000, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S512x16, .f32⟩
  | .hbm, ⟨2, _⟩ => ⟨S16, .f32⟩
  | .hbm, ⟨3, _⟩ => ⟨S16x6, .f32⟩
  | .hbm, ⟨4, _⟩ => ⟨S6, .f32⟩
  | .hbm, ⟨5, _⟩ => ⟨S3200000, .f32⟩
  | .hbm, ⟨6, _⟩ => ⟨S2x3200000, .i32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S3300000x1, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x16, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S100000x6, .f32⟩
  | .hbm, ⟨70, _⟩ => ⟨S3300000x1, .f32⟩
  | .hbm, ⟨71, _⟩ => ⟨S_, .i32⟩
  | .hbm, ⟨72, _⟩ => ⟨S3300000, .i32⟩
  | .hbm, ⟨73, _⟩ => ⟨S3300000, .i1⟩
  | .hbm, ⟨74, _⟩ => ⟨S_, .i32⟩
  | .hbm, ⟨75, _⟩ => ⟨S3300000, .i32⟩
  | .hbm, ⟨76, _⟩ => ⟨S3300000, .i32⟩
  | .hbm, ⟨77, _⟩ => ⟨S3300000, .i32⟩
  | .hbm, ⟨78, _⟩ => ⟨S3300000x1, .i32⟩
  | .hbm, ⟨79, _⟩ => ⟨S3300000x6, .f32⟩
  | .hbm, ⟨80, _⟩ => ⟨S3300000x6, .f32⟩
  | .hbm, ⟨81, _⟩ => ⟨S3300000x6, .f32⟩
  | .hbm, ⟨82, _⟩ => ⟨S_, .f32⟩
  | .hbm, ⟨83, _⟩ => ⟨S100000x6, .f32⟩
  | .hbm, ⟨84, _⟩ => ⟨S3300000x1, .i32⟩
  | .hbm, ⟨85, _⟩ => ⟨S100000x6, .f32⟩
  | .hbm, ⟨86, _⟩ => ⟨S1x6, .f32⟩
  | .hbm, ⟨87, _⟩ => ⟨S100000x6, .f32⟩
  | .hbm, ⟨88, _⟩ => ⟨S100000x6, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x6, .f32⟩
  | .hbm, ⟨96, _⟩ => ⟨S100000x6, .f32⟩
  | .hbm, ⟨97, _⟩ => ⟨S100000x6, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x6, .f32⟩
  | .hbm, ⟨103, _⟩ => ⟨S100000x6, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_9 : Ref sig .tc := ⟨.hbm, 71, rfl⟩
abbrev main_v51 : Ref sig .tc := ⟨.hbm, 72, rfl⟩
abbrev main_v52 : Ref sig .tc := ⟨.hbm, 73, rfl⟩
abbrev main_c_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_call1_cst : Ref sig .tc := ⟨.hbm, 89, rfl⟩
abbrev main_call1_v0 : Ref sig .tc := ⟨.hbm, 90, rfl⟩
abbrev main_call1_cst_0 : Ref sig .tc := ⟨.hbm, 91, rfl⟩
abbrev main_call1_v1 : Ref sig .tc := ⟨.hbm, 92, rfl⟩
abbrev main_call1_v2 : Ref sig .tc := ⟨.hbm, 93, rfl⟩
abbrev main_call1_v3 : Ref sig .tc := ⟨.hbm, 94, rfl⟩
abbrev main_call1_v4 : Ref sig .tc := ⟨.hbm, 95, rfl⟩
abbrev main_call1_v5 : Ref sig .tc := ⟨.hbm, 96, rfl⟩
abbrev main_call1_v6 : Ref sig .tc := ⟨.hbm, 97, rfl⟩
abbrev main_call1_cst_1 : Ref sig .tc := ⟨.hbm, 98, rfl⟩
abbrev main_call1_v7 : Ref sig .tc := ⟨.hbm, 99, rfl⟩
abbrev main_call1_v8 : Ref sig .tc := ⟨.hbm, 100, rfl⟩
abbrev main_call1_v9 : Ref sig .tc := ⟨.hbm, 101, rfl⟩
abbrev main_call1_v10 : Ref sig .tc := ⟨.hbm, 102, rfl⟩
abbrev main_v66 : Ref sig .tc := ⟨.hbm, 103, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x6_0_1 : S3300000x1.BroadcastsInDim S3300000x6 (![0, 1] : Fin 2 → Fin S3300000x6.rank)
  bcast_S_S100000x6 : S_.BroadcastsInDim S100000x6 (![] : Fin 0 → Fin S100000x6.rank)
  bcast_S6_S1x6_1 : S6.BroadcastsInDim S1x6 (![1] : Fin 1 → Fin S1x6.rank)
  bcast_S1x6_S100000x6_0_1 : S1x6.BroadcastsInDim S100000x6 (![0, 1] : Fin 2 → Fin S100000x6.rank)
  reducesTo_S100000x6_S100000_d1 : S100000x6.ReducesTo [1] S100000
  h_S_ : 0 < S_.numel
  bcast_S100000_S100000x1_0 : S100000.BroadcastsInDim S100000x1 (![0] : Fin 1 → Fin S100000x1.rank)
  bcast_S100000x1_S100000x6_0_1 : S100000x1.BroadcastsInDim S100000x6 (![0, 1] : Fin 2 → Fin S100000x6.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x6_S100000x6_1_0_0_1_n_n_wf : DotDims.WF S100000x16 S16x6 S100000x6 [1] [0] [0] [1] [] []
  gather_S100000x6_S3300000x1_S3300000x6_1_0_n_n_0_1_16_wf : GatherDims.WF S100000x6 S3300000x1 S3300000x6 [1] [0] [] [0] [] 1 ![1, 6]
  scatter_S100000x6_S3300000x1_S3300000x6_1_0_0_1_wf : ScatterDims.WF S100000x6 S3300000x1 S3300000x6 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x6_S100000x6_1_0_0_1_n_n : DotDims S100000x16 S16x6 S100000x6 where
  lhsContracting := [1]
  rhsContracting := [0]
  lhsNonContracting := [0]
  rhsNonContracting := [1]
  lhsBatch := []
  rhsBatch := []
  wf := dot_S100000x16_S16x6_S100000x6_1_0_0_1_n_n_wf
def gather_S100000x6_S3300000x1_S3300000x6_1_0_n_n_0_1_16 : GatherDims S100000x6 S3300000x1 S3300000x6 where
  offsetDims := [1]
  collapsedSliceDims := [0]
  operandBatchingDims := []
  startIndicesBatchingDims := []
  startIndexMap := [0]
  indexVectorDim := 1
  sliceSizes := ![1, 6]
  wf := gather_S100000x6_S3300000x1_S3300000x6_1_0_n_n_0_1_16_wf
def scatter_S100000x6_S3300000x1_S3300000x6_1_0_0_1 : ScatterDims S100000x6 S3300000x1 S3300000x6 where
  updateWindowDims := [1]
  insertedWindowDims := [0]
  scatterDimsToOperandDims := [0]
  indexVectorDim := 1
  wf := scatter_S100000x6_S3300000x1_S3300000x6_1_0_0_1_wf

class Facts : Prop extends Facts₀ where

variable [Facts]
-- ==== Proof.KernelRun.lean ====
/-
  The kernel program's run with its two results named.

  The program is eight segments: three stretches of host operations, the first matrix-product kernel, a stretch of
  host operations, the second matrix-product kernel, and two more stretches. The launch theorem for such a chain of
  segments ends with every unscoped buffer at the contents the last boundary names: the fold of the segments over
  the launch memory. Read at the two result buffers this gives each result as that fold's value there; read at an
  argument it gives the launch contents back, since no segment writes an argument.
-/
import proofs.«170331_j59768764892009_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; each result buffer ends at the value
    the fold of the segments gives it, and each argument ends as launched. -/
theorem run_main : θ_run defs (onTc (τ := τ) (main (F := F))) ⟨m, fun _ => 0, ρ⟩ (fun r => ∀ c : Dev nD,
      r.2.mem ((c.tc : Thread nD τ).loc main_v66) = W8 m ρ c (Proc.devRef .tc main_v66)
      ∧ r.2.mem ((c.tc : Thread nD τ).loc main_v48) = W8 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v66 (by decide)),
       h c _ (mem_uc main_v48 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.Run

end
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibPlainDotGeneral.lean ====
/-
  The host's product of an m × k matrix by a k × n matrix, read at an entry.

  A `dot_general` with the left operand contracted on its second axis and the right on its first has, at the exact
  extended reals, at entry (a, b) the sum over the k contracted coordinates c of A(a, c) · B(c, b). The general
  statement sums over the indices of a one-axis "contraction shape"; that index set is carried onto the k coordinates,
  and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- The host's `A · B`, at the exact extended reals, read at `(a, b)`: `∑ c, A (a, c) * B (c, b)`. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec .single A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibRowBlockProduct.lean ====
/-
  A block of rows of a matrix product is the product of that block of rows.

  Let A be an M × k matrix, B a k × n matrix, and X an mb × k matrix whose row p is row r of A. Then the product
  X · B accumulated into zero has, at entry (p, q), the value of the whole product A · B at entry (r, q): both are
  the sum over the k contracted coordinates c of A(r, c) · B(c, q). The left side is the matrix unit's product
  started from an accumulator of zeros; the right side is the host's `dot_general`. Only the two rows have to agree,
  entry by entry; nothing is asked of the other rows, and no entry has to be finite (a finite sum of products on the
  extended reals is a function of its terms).
-/
import proofs.«170331_j59768764892009_1_alg».proof.Proof.LibPlainMatmul
import proofs.«170331_j59768764892009_1_alg».proof.Proof.LibPlainDotGeneral

open scoped BigOperators

namespace Idealize.ShloMosaic.ValueIdx

open Idealize.ShloMosaic

/-- Row `p` of the block product `X · Y` (into zero) is row `r` of the whole product `A · B`, when row `p` of `X` is
    row `r` of `A` and column `q` of `Y` is column `q` of `B`. -/
theorem matmul_rowblock_apply {M mb k n : ℕ} {φ₁ φ₂ ψ₁ ψ₂ : FTy}
    (wb : DotDims.WF ⟨2, ![mb, k]⟩ ⟨2, ![k, n]⟩ ⟨2, ![mb, n]⟩ [1] [0] [0] [1] [] [])
    (wa : DotDims.WF ⟨2, ![M, k]⟩ ⟨2, ![k, n]⟩ ⟨2, ![M, n]⟩ [1] [0] [0] [1] [] [])
    (prec prec' : Option ContractPrecision)
    (A : FVec Ideal ⟨2, ![M, k]⟩ ψ₁) (B : FVec Ideal ⟨2, ![k, n]⟩ ψ₂)
    (X : FVec Ideal ⟨2, ![mb, k]⟩ φ₁) (Y : FVec Ideal ⟨2, ![k, n]⟩ φ₂)
    (p : Fin mb) (q : Fin n) (r : Fin M)
    (hX : ∀ c : Fin k, X (ix2 p c) = A (ix2 r c)) (hY : ∀ c : Fin k, Y (ix2 c q) = B (ix2 c q)) :
    matmul (⟨[1], [0], [0], [1], [], [], wb⟩ : DotDims ⟨2, ![mb, k]⟩ ⟨2, ![k, n]⟩ ⟨2, ![mb, n]⟩) prec X Y
        (constant (F := Ideal) ⟨2, ![mb, n]⟩ .f32 0x00000000#32) (ix2 p q)
      = Host.dotGeneral (⟨[1], [0], [0], [1], [], [], wa⟩ : DotDims ⟨2, ![M, k]⟩ ⟨2, ![k, n]⟩ ⟨2, ![M, n]⟩) prec' A B (ix2 r q) := by
  rw [matmul_plain_zero_apply wb prec X Y p q, dotGeneral_plain_apply wa prec' A B r q]
  exact Finset.sum_congr rfl fun c _ => by rw [hX c, hY c]

end Idealize.ShloMosaic.ValueIdx
-- ==== Proof.RegionProducts.lean ====
/-
  What each of the two matrix-product kernels leaves in its result array, as one whole-array function.

  Each kernel walks a one-axis grid over the rows of its left operand. At grid point t it holds rows
  [t·mb, (t+1)·mb) of the left array and the whole right array, and stores their product, accumulated from zero,
  as rows [t·mb, (t+1)·mb) of the result. Rounding the operands to bf16 before the product changes nothing on
  the extended reals. So entry (t·mb + p, q) of the result is Σ_c A(t·mb + p, c) · B(c, q): the row blocks tile
  the result, and the result array is the whole product A · B, the host's `dot_general` of the two arrays
  as the region finds them. No finiteness is used: both sides are the same finite sum of the same products.
-/
import proofs.«170331_j59768764892009_1_alg».proof.Proof.Gen.KernelIdeal.Frame
import proofs.«170331_j59768764892009_1_alg».proof.Proof.LibRowBlockProduct
import Idealize.ShloMosaic.Lib.Pipeline.Value
import Idealize.ShloMosaic.Lib.ValueIdx

set_option maxRecDepth 16384

noncomputable section

namespace Cert.KernelIdeal.Products

open Cert.KernelIdeal Cert.KernelIdeal.Gen Idealize.ShloMosaic Idealize.ShloMosaic.TcCoe Idealize.SL.Sem
open Idealize.ShloMosaic.Pipeline (Dat)
open Idealize.ShloMosaic.ValueIdx

-- The buffer contents when a region is entered: each region's statement is for any such contents.
variable (V : (c : Dev nD) → (b : Ref sig .tc) → Buf (Elt Ideal) ((c : Thread nD τ).loc b))

/-- The zero offsets of a load or store of a whole staging buffer. -/
theorem hz : (![0, 0] : Fin 2 → Nat) = fun _ => 0 := funext fun a => by fin_cases a <;> rfl

/-! ## Region 0: the node features times the first weight matrix, twenty blocks of 5000 rows -/

/-- The whole product's dimension numbers are well formed. -/
theorem wf0 : DotDims.WF S100000x512 S512x16 S100000x16 [1] [0] [0] [1] [] [] := by decide

/-- The whole 100000 × 512 by 512 × 16 product's dimension numbers: contract the left operand's columns with the right
    operand's rows. -/
abbrev dotAll0 : DotDims S100000x512 S512x16 S100000x16 := ⟨[1], [0], [0], [1], [], [], wf0⟩

/-- The whole product of two arrays, as buffer contents. -/
abbrev prod0 (A : (⟨S100000x512, .f32⟩ : BufTy).Contents (Elt Ideal)) (B : (⟨S512x16, .f32⟩ : BufTy).Contents (Elt Ideal)) :
    (⟨S100000x16, .f32⟩ : BufTy).Contents (Elt Ideal) :=
  Host.dotGeneral (F := Ideal) (φ₁ := .f32) (φ₂ := .f32) dotAll0 none A B

/-- The printed index maps, decided over the 20 grid points: point `t` takes row block `t` of the left operand and of
    the result (column block 0), and the whole right operand. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's stored value at entry `(p, q)` of its block: the block's row `p` times the right operand's column `q`,
    which is the whole product at `(r, q)` when the block's row `p` is row `r` of the left matrix `A` and the staged
    right operand is `B` on column `q`. (Rounding the operands to bf16 is the identity on the extended reals.) -/
theorem pay0_apply (A : FVec Ideal S100000x512 .f32) (B : FVec Ideal S512x16 .f32)
    (x0 : Vec Ideal S5000x512 .f32) (x1 : Vec Ideal S512x16 .f32) (p : Fin 5000) (q : Fin 16) (r : Fin 100000)
    (h0 : ∀ c : Fin 512, x0 (ix2 p c) = A (ix2 r c)) (h1 : ∀ c : Fin 512, x1 (ix2 c q) = B (ix2 c q)) :
    k0_pay1 (F := Ideal) x0 x1 (ix2 p q) = Host.dotGeneral (F := Ideal) dotAll0 none A B (ix2 r q) := by
  unfold k0_pay1
  exact matmul_rowblock_apply dot_S5000x512_S512x16_S5000x16_1_0_0_1_n_n_wf wf0 none none A B
    (truncf .bf16 x0 bitsLt_bf16_f32) (truncf .bf16 x1 bitsLt_bf16_f32) p q r h0 h1

/-- WHAT POINT `t` WRITES BACK is block `t` of the whole product of the two arrays as the region finds them. -/
theorem flushed0_eq (c : Dev nD) (t : Fin cfg0.N) :
    (dat0 V c).flushed 2 t
      = ((cfg0.win 2).blk t).view.read (Elt Ideal) (prod0 (V c main_arg0) (V c main_arg1)) := by
  show (cfg0.win 2).cut (grid0.coords t) ((dat0 V c).after 2 t) = _
  rw [after0_2]
  unfold out0_2
  rw [View.canon_unit_zero hz]
  simp only [View.ld_unit_zero (S := S5000x512) hz, View.ld_unit_zero (S := S512x16) hz]
  obtain ⟨e00, e01, e10, e11, e20, e21⟩ := idx_facts0 t
  have ht : t.val < 20 := lt_of_lt_of_eq t.isLt N_0
  funext j
  obtain ⟨p, q, rfl⟩ : ∃ (p : Fin 5000) (q : Fin 16), j = ix2 p q := ⟨j 0, j 1, eq_ix2 j⟩
  have hr : t.val * 5000 + p.val < 100000 := by have := p.isLt; omega
  have hemb : ((cfg0.win 2).blk t).view.emb (ix2 p q) = ix2 (⟨t.val * 5000 + p.val, hr⟩ : Fin 100000) q := by
    funext a; apply Fin.ext
    match a with
    | ⟨0, _⟩ => show win0_2.index t (0 : Fin 2) * 5000 + 1 * p.val = t.val * 5000 + p.val; omega
    | ⟨1, _⟩ => show win0_2.index t (1 : Fin 2) * 16 + 1 * q.val = q.val; omega
  show k0_pay1 (F := Ideal) (iblk0 V c 0 t) (iblk0 V c 1 t) (ix2 p q)
    = prod0 (V c main_arg0) (V c main_arg1) (((cfg0.win 2).blk t).view.emb (ix2 p q))
  rw [hemb]
  refine pay0_apply (V c main_arg0) (V c main_arg1) (iblk0 V c 0 t) (iblk0 V c 1 t) p q ⟨t.val * 5000 + p.val, hr⟩ (fun s => ?_) (fun s => ?_)
  · show V c main_arg0 (((cfg0.win 0).blk t).view.emb (ix2 p s)) = V c main_arg0 (ix2 (⟨t.val * 5000 + p.val, hr⟩ : Fin 100000) s)
    refine congrArg (V c main_arg0) ?_
    funext a; apply Fin.ext
    match a with
    | ⟨0, _⟩ => show win0_0.index t (0 : Fin 2) * 5000 + 1 * p.val = t.val * 5000 + p.val; omega
    | ⟨1, _⟩ => show win0_0.index t (1 : Fin 2) * 512 + 1 * s.val = s.val; omega
  · show V c main_arg1 (((cfg0.win 1).blk t).view.emb (ix2 s q)) = V c main_arg1 (ix2 s q)
    refine congrArg (V c main_arg1) ?_
    funext a; apply Fin.ext
    match a with
    | ⟨0, _⟩ => show win0_1.index t (0 : Fin 2) * 512 + 1 * s.val = s.val; omega
    | ⟨1, _⟩ => show win0_1.index t (1 : Fin 2) * 16 + 1 * q.val = q.val; omega

/-- An index of the result array is in point `t`'s block iff each coordinate is in the block's range on its axis. -/
theorem mem_blk0 (t : Fin cfg0.N) (i : S100000x16.Idx) :
    i ∈ ((cfg0.win 2).blk t).view.set ↔ ∀ a : Fin 2, win0_2.index t a * S5000x16.size a ≤ (i a).val
      ∧ (i a).val < win0_2.index t a * S5000x16.size a + S5000x16.size a := by
  show i ∈ ((View.whole main_v32).slice (win0_2.rect t)).set ↔ _
  rw [View.set_slice_whole, Rect.mem_set_unit]
  exact Iff.rfl

/-- Every entry of the result is in some point's block: row `r` is in row block `r / 5000`. -/
theorem cover0 (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : (i 0).val / 5000 < cfg0.N := lt_of_lt_of_eq (by omega : (i 0).val / 5000 < 20) N_0.symm
  refine ⟨⟨(i 0).val / 5000, hN⟩, flush0_2 _, ?_⟩
  obtain ⟨-, -, -, -, e20, e21⟩ := idx_facts0 ⟨(i 0).val / 5000, hN⟩
  rw [mem_blk0]
  intro a
  match a with
  | ⟨0, _⟩ =>
    show win0_2.index ⟨(i 0).val / 5000, hN⟩ (0 : Fin 2) * 5000 ≤ (i 0).val
      ∧ (i 0).val < win0_2.index ⟨(i 0).val / 5000, hN⟩ (0 : Fin 2) * 5000 + 5000
    rw [e20]; show (i 0).val / 5000 * 5000 ≤ (i 0).val ∧ (i 0).val < (i 0).val / 5000 * 5000 + 5000; omega
  | ⟨1, _⟩ =>
    show win0_2.index ⟨(i 0).val / 5000, hN⟩ (1 : Fin 2) * 16 ≤ (i 1).val
      ∧ (i 1).val < win0_2.index ⟨(i 0).val / 5000, hN⟩ (1 : Fin 2) * 16 + 16
    rw [e21]; omega

/-- THE RESULT ARRAY after region 0: the whole product of the two operand arrays as the region finds them. -/
theorem product0 (c : Dev nD) :
    (dat0 V c).arrAt 2 cfg0.N = prod0 (V c main_arg0) (V c main_arg1) :=
  (dat0 V c).arrAt_eq_of_cover 2 _ (fun t _ => flushed0_eq V c t) cover0

/-! ## Region 1: the first layer's output times the second weight matrix, ten blocks of 10000 rows -/

/-- The whole product's dimension numbers are well formed. -/
theorem wf1 : DotDims.WF S100000x16 S16x6 S100000x6 [1] [0] [0] [1] [] [] := by decide

/-- The whole 100000 × 16 by 16 × 6 product's dimension numbers: contract the left operand's columns with the right
    operand's rows. -/
abbrev dotAll1 : DotDims S100000x16 S16x6 S100000x6 := ⟨[1], [0], [0], [1], [], [], wf1⟩

/-- The whole product of two arrays, as buffer contents. -/
abbrev prod1 (A : (⟨S100000x16, .f32⟩ : BufTy).Contents (Elt Ideal)) (B : (⟨S16x6, .f32⟩ : BufTy).Contents (Elt Ideal)) :
    (⟨S100000x6, .f32⟩ : BufTy).Contents (Elt Ideal) :=
  Host.dotGeneral (F := Ideal) (φ₁ := .f32) (φ₂ := .f32) dotAll1 none A B

/-- The printed index maps, decided over the 10 grid points: point `t` takes row block `t` of the left operand and of
    the result (column block 0), and the whole right operand. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The body's stored value at entry `(p, q)` of its block: the block's row `p` times the right operand's column `q`,
    which is the whole product at `(r, q)` when the block's row `p` is row `r` of the left matrix `A` and the staged
    right operand is `B` on column `q`. (Rounding the operands to bf16 is the identity on the extended reals.) -/
theorem pay1_apply (A : FVec Ideal S100000x16 .f32) (B : FVec Ideal S16x6 .f32)
    (x0 : Vec Ideal S10000x16 .f32) (x1 : Vec Ideal S16x6 .f32) (p : Fin 10000) (q : Fin 6) (r : Fin 100000)
    (h0 : ∀ c : Fin 16, x0 (ix2 p c) = A (ix2 r c)) (h1 : ∀ c : Fin 16, x1 (ix2 c q) = B (ix2 c q)) :
    k1_pay1 (F := Ideal) x0 x1 (ix2 p q) = Host.dotGeneral (F := Ideal) dotAll1 none A B (ix2 r q) := by
  unfold k1_pay1
  rw [shapeCast_self]
  exact matmul_rowblock_apply dot_S10000x16_S16x6_S10000x6_1_0_0_1_n_n_wf wf1 none none A B
    (truncf .bf16 x0 bitsLt_bf16_f32) (truncf .bf16 x1 bitsLt_bf16_f32) p q r h0 h1

/-- WHAT POINT `t` WRITES BACK is block `t` of the whole product of the two arrays as the region finds them. -/
theorem flushed1_eq (c : Dev nD) (t : Fin cfg1.N) :
    (dat1 V c).flushed 2 t
      = ((cfg1.win 2).blk t).view.read (Elt Ideal) (prod1 (V c main_v48) (V c main_arg3)) := by
  show (cfg1.win 2).cut (grid1.coords t) ((dat1 V c).after 2 t) = _
  rw [after1_2]
  unfold out1_2
  rw [View.canon_unit_zero hz]
  simp only [View.ld_unit_zero (S := S10000x16) hz, View.ld_unit_zero (S := S16x6) hz]
  obtain ⟨e00, e01, e10, e11, e20, e21⟩ := idx_facts1 t
  have ht : t.val < 10 := lt_of_lt_of_eq t.isLt N_1
  funext j
  obtain ⟨p, q, rfl⟩ : ∃ (p : Fin 10000) (q : Fin 6), j = ix2 p q := ⟨j 0, j 1, eq_ix2 j⟩
  have hr : t.val * 10000 + p.val < 100000 := by have := p.isLt; omega
  have hemb : ((cfg1.win 2).blk t).view.emb (ix2 p q) = ix2 (⟨t.val * 10000 + p.val, hr⟩ : Fin 100000) q := by
    funext a; apply Fin.ext
    match a with
    | ⟨0, _⟩ => show win1_2.index t (0 : Fin 2) * 10000 + 1 * p.val = t.val * 10000 + p.val; omega
    | ⟨1, _⟩ => show win1_2.index t (1 : Fin 2) * 6 + 1 * q.val = q.val; omega
  show k1_pay1 (F := Ideal) (iblk1 V c 0 t) (iblk1 V c 1 t) (ix2 p q)
    = prod1 (V c main_v48) (V c main_arg3) (((cfg1.win 2).blk t).view.emb (ix2 p q))
  rw [hemb]
  refine pay1_apply (V c main_v48) (V c main_arg3) (iblk1 V c 0 t) (iblk1 V c 1 t) p q ⟨t.val * 10000 + p.val, hr⟩ (fun s => ?_) (fun s => ?_)
  · show V c main_v48 (((cfg1.win 0).blk t).view.emb (ix2 p s)) = V c main_v48 (ix2 (⟨t.val * 10000 + p.val, hr⟩ : Fin 100000) s)
    refine congrArg (V c main_v48) ?_
    funext a; apply Fin.ext
    match a with
    | ⟨0, _⟩ => show win1_0.index t (0 : Fin 2) * 10000 + 1 * p.val = t.val * 10000 + p.val; omega
    | ⟨1, _⟩ => show win1_0.index t (1 : Fin 2) * 16 + 1 * s.val = s.val; omega
  · show V c main_arg3 (((cfg1.win 1).blk t).view.emb (ix2 s q)) = V c main_arg3 (ix2 s q)
    refine congrArg (V c main_arg3) ?_
    funext a; apply Fin.ext
    match a with
    | ⟨0, _⟩ => show win1_1.index t (0 : Fin 2) * 16 + 1 * s.val = s.val; omega
    | ⟨1, _⟩ => show win1_1.index t (1 : Fin 2) * 6 + 1 * q.val = q.val; omega

/-- An index of the result array is in point `t`'s block iff each coordinate is in the block's range on its axis. -/
theorem mem_blk1 (t : Fin cfg1.N) (i : S100000x6.Idx) :
    i ∈ ((cfg1.win 2).blk t).view.set ↔ ∀ a : Fin 2, win1_2.index t a * S10000x6.size a ≤ (i a).val
      ∧ (i a).val < win1_2.index t a * S10000x6.size a + S10000x6.size a := by
  show i ∈ ((View.whole main_v49).slice (win1_2.rect t)).set ↔ _
  rw [View.set_slice_whole, Rect.mem_set_unit]
  exact Iff.rfl

/-- Every entry of the result is in some point's block: row `r` is in row block `r / 10000`. -/
theorem cover1 (i : S100000x6.Idx) :
    ∃ t : Fin cfg1.N, (cfg1.win 2).flush t = true ∧ i ∈ ((cfg1.win 2).blk t).view.set := by
  have hi0 : (i 0).val < 100000 := (i 0).isLt
  have hi1 : (i 1).val < 6 := (i 1).isLt
  have hN : (i 0).val / 10000 < cfg1.N := lt_of_lt_of_eq (by omega : (i 0).val / 10000 < 10) N_1.symm
  refine ⟨⟨(i 0).val / 10000, hN⟩, flush1_2 _, ?_⟩
  obtain ⟨-, -, -, -, e20, e21⟩ := idx_facts1 ⟨(i 0).val / 10000, hN⟩
  rw [mem_blk1]
  intro a
  match a with
  | ⟨0, _⟩ =>
    show win1_2.index ⟨(i 0).val / 10000, hN⟩ (0 : Fin 2) * 10000 ≤ (i 0).val
      ∧ (i 0).val < win1_2.index ⟨(i 0).val / 10000, hN⟩ (0 : Fin 2) * 10000 + 10000
    rw [e20]; show (i 0).val / 10000 * 10000 ≤ (i 0).val ∧ (i 0).val < (i 0).val / 10000 * 10000 + 10000; omega
  | ⟨1, _⟩ =>
    show win1_2.index ⟨(i 0).val / 10000, hN⟩ (1 : Fin 2) * 6 ≤ (i 1).val
      ∧ (i 1).val < win1_2.index ⟨(i 0).val / 10000, hN⟩ (1 : Fin 2) * 6 + 6
    rw [e21]; omega

/-- THE RESULT ARRAY after region 1: the whole product of the two operand arrays as the region finds them. -/
theorem product1 (c : Dev nD) :
    (dat1 V c).arrAt 2 cfg1.N = prod1 (V c main_v48) (V c main_arg3) :=
  (dat1 V c).arrAt_eq_of_cover 2 _ (fun t _ => flushed1_eq V c t) cover1

end Cert.KernelIdeal.Products

end
-- ==== Proof.KernelFold.lean ====
/-
  The buffer contents across the two kernels, read where the host operations after them read.

  The first kernel leaves its result array at the whole product of the node features and the first weight matrix
  (as the region finds them) and every buffer that is not one of its three arrays as it found it. The second
  kernel likewise leaves the product of the first layer's output and the second weight matrix, its left operand
  (which it only reads) as found, and every other buffer as found. These are the reads the host operations after
  each kernel make.
-/
import proofs.«170331_j59768764892009_1_alg».proof.Proof.RegionProducts

set_option maxRecDepth 16384

noncomputable section

namespace Cert.KernelIdeal.Fold

open Cert.KernelIdeal Cert.KernelIdeal.Gen Cert.KernelIdeal.Products
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-! ## After the first kernel -/

/-- The first kernel's result array: the features times the first weight matrix, both as found. -/
theorem W4_v32 : W4 m ρ c (Proc.devRef .tc main_v32)
    = prod0 (W3 m ρ c (Proc.devRef .tc main_arg0)) (W3 m ρ c (Proc.devRef .tc main_arg1)) :=
  (W4_arr m ρ c 2).trans (product0 (V3 m ρ) c)

/-- A buffer that is none of the first kernel's arrays is as found. -/
theorem W4_v31 : W4 m ρ c (Proc.devRef .tc main_v31) = W3 m ρ c (Proc.devRef .tc main_v31) := W4_of_ne m ρ c main_v31 (by decide)
theorem W4_v3 : W4 m ρ c (Proc.devRef .tc main_v3) = W3 m ρ c (Proc.devRef .tc main_v3) := W4_of_ne m ρ c main_v3 (by decide)
theorem W4_v6 : W4 m ρ c (Proc.devRef .tc main_v6) = W3 m ρ c (Proc.devRef .tc main_v6) := W4_of_ne m ρ c main_v6 (by decide)
theorem W4_arg2 : W4 m ρ c (Proc.devRef .tc main_arg2) = W3 m ρ c (Proc.devRef .tc main_arg2) := W4_of_ne m ρ c main_arg2 (by decide)
theorem W4_arg3 : W4 m ρ c (Proc.devRef .tc main_arg3) = W3 m ρ c (Proc.devRef .tc main_arg3) := W4_of_ne m ρ c main_arg3 (by decide)
theorem W4_arg4 : W4 m ρ c (Proc.devRef .tc main_arg4) = W3 m ρ c (Proc.devRef .tc main_arg4) := W4_of_ne m ρ c main_arg4 (by decide)

/-! ## After the second kernel -/

/-- The second kernel's result array: the first layer's output times the second weight matrix, both as found. -/
theorem W6_v49 : W6 m ρ c (Proc.devRef .tc main_v49)
    = prod1 (W5 m ρ c (Proc.devRef .tc main_v48)) (W5 m ρ c (Proc.devRef .tc main_arg3)) :=
  (W6_arr m ρ c 2).trans (product1 (V5 m ρ) c)

/-- The second kernel's left operand, which it only reads, is as found. -/
theorem W6_v48 : W6 m ρ c (Proc.devRef .tc main_v48) = W5 m ρ c (Proc.devRef .tc main_v48) :=
  (W6_arr m ρ c 0).trans (((dat1 (V5 m ρ) c).arrAt_in 0 rfl _).trans (A_eq1 (V5 m ρ) c 0))

/-- A buffer that is none of the second kernel's arrays is as found. -/
theorem W6_v31 : W6 m ρ c (Proc.devRef .tc main_v31) = W5 m ρ c (Proc.devRef .tc main_v31) := W6_of_ne m ρ c main_v31 (by decide)
theorem W6_v3 : W6 m ρ c (Proc.devRef .tc main_v3) = W5 m ρ c (Proc.devRef .tc main_v3) := W6_of_ne m ρ c main_v3 (by decide)
theorem W6_v6 : W6 m ρ c (Proc.devRef .tc main_v6) = W5 m ρ c (Proc.devRef .tc main_v6) := W6_of_ne m ρ c main_v6 (by decide)
theorem W6_arg4 : W6 m ρ c (Proc.devRef .tc main_arg4) = W5 m ρ c (Proc.devRef .tc main_arg4) := W6_of_ne m ρ c main_arg4 (by decide)

end Cert.KernelIdeal.Fold

end
-- ==== Proof.LibOverwriteSame.lean ====
/-
  Writing into a buffer the contents it already holds changes no buffer.

  A host operation that produces a constant value `v` in buffer `y` takes buffer contents `F` to the contents that
  agree with `F` everywhere except at `y`, where they are `v`. If `v` is what `F` already holds at `y`, the new
  contents are `F` again. This lets a proof restate some buffer contents as "the same contents, with these buffers
  holding these named values", after which everything computed from those buffers is visibly a function of the
  named values alone.
-/
import Idealize.ShloMosaic.Lib.StableHlo.Run

namespace Idealize.ShloMosaic.StableHlo

open Idealize.ShloMosaic Idealize.SL.Sem

/-- Overwriting buffer `y` with the value it holds is the identity on buffer contents. -/
theorem nullary_result_self {τ : Topo} {sig : RefSig} {Val : EltTy → Type} (y : Ref sig .tc) (v : y.ty.Contents Val) (hy)
    (F : Valuation τ sig Val) (hv : v = F (Proc.devRef .tc y)) : (nullary (τ := τ) y v hy).result F = F := by
  funext b
  by_cases hb : b ∈ (nullary (τ := τ) (Val := Val) y v hy).writes
  · rw [nullary_writes] at hb
    obtain rfl : b = Proc.devRef .tc y := Finset.mem_singleton.mp hb
    rw [nullary_result]; exact hv
  · exact HloOp.result_of_not_mem _ F hb

end Idealize.ShloMosaic.StableHlo
-- ==== Proof.Bridge.lean ====
/-
  The two programs, stage by stage.

  Both programs run the same host operations on the same buffers; they differ only where the kernel program launches
  a matrix-product kernel and the reference applies the host's matrix product. Cut both at those two places and before
  the final log-softmax: six stages. At the end of each stage, every buffer a later stage reads holds the same contents
  in both programs. This is shown stage by stage: inside a stage both programs apply the same operations to
  buffers that agreed at the stage's start, and across a kernel the result array is the host's product of the two
  operand arrays (the blocks of rows tile the product), every other buffer being untouched.
-/
import proofs.«170331_j59768764892009_1_alg».proof.Proof.KernelFold
import proofs.«170331_j59768764892009_1_alg».proof.Proof.RefRunPatched
import proofs.«170331_j59768764892009_1_alg».proof.Proof.LibOverwriteSame

set_option maxRecDepth 16384

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

/-! ## The reference's buffer contents at the stage boundaries -/

/-- At launch. -/
def U0 : Valuation Cert.ReferenceIdeal.τ Cert.ReferenceIdeal.sig (Elt Ideal) := launchContents m' c
/-- After the edge lists and the normalised weights. -/
def U3 : Valuation Cert.ReferenceIdeal.τ Cert.ReferenceIdeal.sig (Elt Ideal) := after Cert.ReferenceIdeal.ValueP.opsPre (U0 m' c)
/-- After the first matrix product. -/
def U4 : Valuation Cert.ReferenceIdeal.τ Cert.ReferenceIdeal.sig (Elt Ideal) := (Cert.ReferenceIdeal.ValueP.opDot1 (F := Ideal)).result (U3 m' c)
/-- After the first layer's aggregation. -/
def U5 : Valuation Cert.ReferenceIdeal.τ Cert.ReferenceIdeal.sig (Elt Ideal) := after Cert.ReferenceIdeal.ValueP.opsMid (U4 m' c)
/-- After the second matrix product. -/
def U6 : Valuation Cert.ReferenceIdeal.τ Cert.ReferenceIdeal.sig (Elt Ideal) := (Cert.ReferenceIdeal.ValueP.opDot2 (F := Ideal)).result (U5 m' c)
/-- After the second layer's aggregation. -/
def U7 : Valuation Cert.ReferenceIdeal.τ Cert.ReferenceIdeal.sig (Elt Ideal) := after Cert.ReferenceIdeal.ValueP.opsPost (U6 m' c)
/-- After the log-softmax: the end. -/
def U8 : Valuation Cert.ReferenceIdeal.τ Cert.ReferenceIdeal.sig (Elt Ideal) := after Cert.ReferenceIdeal.ValueP.opsTail (U7 m' c)

/-- The reference's whole fold is the six stages in order. -/
theorem fold_eq : after Cert.ReferenceIdeal.ValueP.ops (launchContents m' c) = U8 m' c := by
  rw [Cert.ReferenceIdeal.ValueP.ops_eq]
  simp only [after_append, after_cons]
  rfl

/-- The two launch memories agree on the seven arguments. -/
structure Agree : Prop where
  a0 : U0 m' c (Proc.devRef .tc Cert.ReferenceIdeal.main_arg0) = Cert.KernelIdeal.Gen.W0 m ρ c (Proc.devRef .tc Cert.KernelIdeal.main_arg0)
  a1 : U0 m' c (Proc.devRef .tc Cert.ReferenceIdeal.main_arg1) = Cert.KernelIdeal.Gen.W0 m ρ c (Proc.devRef .tc Cert.KernelIdeal.main_arg1)
  a2 : U0 m' c (Proc.devRef .tc Cert.ReferenceIdeal.main_arg2) = Cert.KernelIdeal.Gen.W0 m ρ c (Proc.devRef .tc Cert.KernelIdeal.main_arg2)
  a3 : U0 m' c (Proc.devRef .tc Cert.ReferenceIdeal.main_arg3) = Cert.KernelIdeal.Gen.W0 m ρ c (Proc.devRef .tc Cert.KernelIdeal.main_arg3)
  a4 : U0 m' c (Proc.devRef .tc Cert.ReferenceIdeal.main_arg4) = Cert.KernelIdeal.Gen.W0 m ρ c (Proc.devRef .tc Cert.KernelIdeal.main_arg4)
  a5 : U0 m' c (Proc.devRef .tc Cert.ReferenceIdeal.main_arg5) = Cert.KernelIdeal.Gen.W0 m ρ c (Proc.devRef .tc Cert.KernelIdeal.main_arg5)
  a6 : U0 m' c (Proc.devRef .tc Cert.ReferenceIdeal.main_arg6) = Cert.KernelIdeal.Gen.W0 m ρ c (Proc.devRef .tc Cert.KernelIdeal.main_arg6)

-- the two kernels' exit contents are read only through the lemmas about them
attribute [local irreducible] Cert.KernelIdeal.Gen.W4 Cert.KernelIdeal.Gen.W6

variable {m ρ m' c}

/-! ## Stage 1: the edge lists and the normalised edge weights (functions of the edge arguments only) -/

variable (m ρ c) in
/-- The buffers read after this boundary, overwritten with the kernel program's values there. -/
abbrev seed0 : List (HloOp Cert.ReferenceIdeal.τ Cert.ReferenceIdeal.sig (Elt Ideal)) :=
  [nullary Cert.ReferenceIdeal.main_arg0 (Cert.KernelIdeal.Gen.W0 m ρ c (Proc.devRef .tc Cert.KernelIdeal.main_arg0)),
   nullary Cert.ReferenceIdeal.main_arg1 (Cert.KernelIdeal.Gen.W0 m ρ c (Proc.devRef .tc Cert.KernelIdeal.main_arg1)),
   nullary Cert.ReferenceIdeal.main_arg2 (Cert.KernelIdeal.Gen.W0 m ρ c (Proc.devRef .tc Cert.KernelIdeal.main_arg2)),
   nullary Cert.ReferenceIdeal.main_arg3 (Cert.KernelIdeal.Gen.W0 m ρ c (Proc.devRef .tc Cert.KernelIdeal.main_arg3)),
   nullary Cert.ReferenceIdeal.main_arg4 (Cert.KernelIdeal.Gen.W0 m ρ c (Proc.devRef .tc Cert.KernelIdeal.main_arg4)),
   nullary Cert.ReferenceIdeal.main_arg5 (Cert.KernelIdeal.Gen.W0 m ρ c (Proc.devRef .tc Cert.KernelIdeal.main_arg5)),
   nullary Cert.ReferenceIdeal.main_arg6 (Cert.KernelIdeal.Gen.W0 m ρ c (Proc.devRef .tc Cert.KernelIdeal.main_arg6))]

/-- The reference's contents at this boundary are unchanged by that overwriting: the two programs agree there. -/
theorem U0_seed (h : Agree m ρ m' c) : after (seed0 m ρ c) (U0 m' c) = U0 m' c := by
  simp only [after_cons, after_nil]
  rw [nullary_result_self _ _ _ (U0 m' c) (h.a0.symm),
    nullary_result_self _ _ _ (U0 m' c) (h.a1.symm),
    nullary_result_self _ _ _ (U0 m' c) (h.a2.symm),
    nullary_result_self _ _ _ (U0 m' c) (h.a3.symm),
    nullary_result_self _ _ _ (U0 m' c) (h.a4.symm),
    nullary_result_self _ _ _ (U0 m' c) (h.a5.symm),
    nullary_result_self _ _ _ (U0 m' c) (h.a6.symm)]

set_option maxHeartbeats 4000000 in
/-- After the first stage each buffer read later holds the same contents in both programs: both apply the same operations to arguments that agree. -/
theorem s3_v31 (h : Agree m ρ m' c) : Cert.KernelIdeal.Gen.W3 m ρ c (Proc.devRef .tc Cert.KernelIdeal.main_v31) = U3 m' c (Proc.devRef .tc Cert.ReferenceIdeal.main_v31) :=
  (show Cert.KernelIdeal.Gen.W3 m ρ c (Proc.devRef .tc Cert.KernelIdeal.main_v31) = after Cert.ReferenceIdeal.ValueP.opsPre (after (seed0 m ρ c) (U0 m' c)) (Proc.devRef .tc Cert.ReferenceIdeal.main_v31) from rfl).trans
    (congrArg (fun V => after Cert.ReferenceIdeal.ValueP.opsPre V (Proc.devRef .tc Cert.ReferenceIdeal.main_v31)) (U0_seed h))

set_option maxHeartbeats 4000000 in
theorem s3_v3 (h : Agree m ρ m' c) : Cert.KernelIdeal.Gen.W3 m ρ c (Proc.devRef .tc Cert.KernelIdeal.main_v3) = U3 m' c (Proc.devRef .tc Cert.ReferenceIdeal.main_v3) :=
  (show Cert.KernelIdeal.Gen.W3 m ρ c (Proc.devRef .tc Cert.KernelIdeal.main_v3) = after Cert.ReferenceIdeal.ValueP.opsPre (after (seed0 m ρ c) (U0 m' c)) (Proc.devRef .tc Cert.ReferenceIdeal.main_v3) from rfl).trans
    (congrArg (fun V => after Cert.ReferenceIdeal.ValueP.opsPre V (Proc.devRef .tc Cert.ReferenceIdeal.main_v3)) (U0_seed h))

set_option maxHeartbeats 4000000 in
theorem s3_v6 (h : Agree m ρ m' c) : Cert.KernelIdeal.Gen.W3 m ρ c (Proc.devRef .tc Cert.KernelIdeal.main_v6) = U3 m' c (Proc.devRef .tc Cert.ReferenceIdeal.main_v6) :=
  (show Cert.KernelIdeal.Gen.W3 m ρ c (Proc.devRef .tc Cert.KernelIdeal.main_v6) = after Cert.ReferenceIdeal.ValueP.opsPre (after (seed0 m ρ c) (U0 m' c)) (Proc.devRef .tc Cert.ReferenceIdeal.main_v6) from rfl).trans
    (congrArg (fun V => after Cert.ReferenceIdeal.ValueP.opsPre V (Proc.devRef .tc Cert.ReferenceIdeal.main_v6)) (U0_seed h))

set_option maxHeartbeats 4000000 in
theorem s3_arg0 (h : Agree m ρ m' c) : Cert.KernelIdeal.Gen.W3 m ρ c (Proc.devRef .tc Cert.KernelIdeal.main_arg0) = U3 m' c (Proc.devRef .tc Cert.ReferenceIdeal.main_arg0) :=
  (show Cert.KernelIdeal.Gen.W3 m ρ c (Proc.devRef .tc Cert.KernelIdeal.main_arg0) = after Cert.ReferenceIdeal.ValueP.opsPre (after (seed0 m ρ c) (U0 m' c)) (Proc.devRef .tc Cert.ReferenceIdeal.main_arg0) from rfl).trans
    (congrArg (fun V => after Cert.ReferenceIdeal.ValueP.opsPre V (Proc.devRef .tc Cert.ReferenceIdeal.main_arg0)) (U0_seed h))

set_option maxHeartbeats 4000000 in
theorem s3_arg1 (h : Agree m ρ m' c) : Cert.KernelIdeal.Gen.W3 m ρ c (Proc.devRef .tc Cert.KernelIdeal.main_arg1) = U3 m' c (Proc.devRef .tc Cert.ReferenceIdeal.main_arg1) :=
  (show Cert.KernelIdeal.Gen.W3 m ρ c (Proc.devRef .tc Cert.KernelIdeal.main_arg1) = after Cert.ReferenceIdeal.ValueP.opsPre (after (seed0 m ρ c) (U0 m' c)) (Proc.devRef .tc Cert.ReferenceIdeal.main_arg1) from rfl).trans
    (congrArg (fun V => after Cert.ReferenceIdeal.ValueP.opsPre V (Proc.devRef .tc Cert.ReferenceIdeal.main_arg1)) (U0_seed h))

set_option maxHeartbeats 4000000 in
theorem s3_arg2 (h : Agree m ρ m' c) : Cert.KernelIdeal.Gen.W3 m ρ c (Proc.devRef .tc Cert.KernelIdeal.main_arg2) = U3 m' c (Proc.devRef .tc Cert.ReferenceIdeal.main_arg2) :=
  (show Cert.KernelIdeal.Gen.W3 m ρ c (Proc.devRef .tc Cert.KernelIdeal.main_arg2) = after Cert.ReferenceIdeal.ValueP.opsPre (after (seed0 m ρ c) (U0 m' c)) (Proc.devRef .tc Cert.ReferenceIdeal.main_arg2) from rfl).trans
    (congrArg (fun V => after Cert.ReferenceIdeal.ValueP.opsPre V (Proc.devRef .tc Cert.ReferenceIdeal.main_arg2)) (U0_seed h))

set_option maxHeartbeats 4000000 in
theorem s3_arg3 (h : Agree m ρ m' c) : Cert.KernelIdeal.Gen.W3 m ρ c (Proc.devRef .tc Cert.KernelIdeal.main_arg3) = U3 m' c (Proc.devRef .tc Cert.ReferenceIdeal.main_arg3) :=
  (show Cert.KernelIdeal.Gen.W3 m ρ c (Proc.devRef .tc Cert.KernelIdeal.main_arg3) = after Cert.ReferenceIdeal.ValueP.opsPre (after (seed0 m ρ c) (U0 m' c)) (Proc.devRef .tc Cert.ReferenceIdeal.main_arg3) from rfl).trans
    (congrArg (fun V => after Cert.ReferenceIdeal.ValueP.opsPre V (Proc.devRef .tc Cert.ReferenceIdeal.main_arg3)) (U0_seed h))

set_option maxHeartbeats 4000000 in
theorem s3_arg4 (h : Agree m ρ m' c) : Cert.KernelIdeal.Gen.W3 m ρ c (Proc.devRef .tc Cert.KernelIdeal.main_arg4) = U3 m' c (Proc.devRef .tc Cert.ReferenceIdeal.main_arg4) :=
  (show Cert.KernelIdeal.Gen.W3 m ρ c (Proc.devRef .tc Cert.KernelIdeal.main_arg4) = after Cert.ReferenceIdeal.ValueP.opsPre (after (seed0 m ρ c) (U0 m' c)) (Proc.devRef .tc Cert.ReferenceIdeal.main_arg4) from rfl).trans
    (congrArg (fun V => after Cert.ReferenceIdeal.ValueP.opsPre V (Proc.devRef .tc Cert.ReferenceIdeal.main_arg4)) (U0_seed h))

/-! ## Stage 2: the first matrix product -/

/-- The kernel's result array is the host's product of the two arrays it was given, and those agree. -/
theorem s4_v32 (h : Agree m ρ m' c) : Cert.KernelIdeal.Gen.W4 m ρ c (Proc.devRef .tc Cert.KernelIdeal.main_v32) = U4 m' c (Proc.devRef .tc Cert.ReferenceIdeal.main_v32) := by
  rw [Cert.KernelIdeal.Fold.W4_v32, s3_arg0 h, s3_arg1 h]
  rfl

theorem s4_v31 (h : Agree m ρ m' c) : Cert.KernelIdeal.Gen.W4 m ρ c (Proc.devRef .tc Cert.KernelIdeal.main_v31) = U4 m' c (Proc.devRef .tc Cert.ReferenceIdeal.main_v31) :=
  (Cert.KernelIdeal.Fold.W4_v31 m ρ c).trans ((s3_v31 h).trans rfl)

theorem s4_v3 (h : Agree m ρ m' c) : Cert.KernelIdeal.Gen.W4 m ρ c (Proc.devRef .tc Cert.KernelIdeal.main_v3) = U4 m' c (Proc.devRef .tc Cert.ReferenceIdeal.main_v3) :=
  (Cert.KernelIdeal.Fold.W4_v3 m ρ c).trans ((s3_v3 h).trans rfl)

theorem s4_v6 (h : Agree m ρ m' c) : Cert.KernelIdeal.Gen.W4 m ρ c (Proc.devRef .tc Cert.KernelIdeal.main_v6) = U4 m' c (Proc.devRef .tc Cert.ReferenceIdeal.main_v6) :=
  (Cert.KernelIdeal.Fold.W4_v6 m ρ c).trans ((s3_v6 h).trans rfl)

theorem s4_arg2 (h : Agree m ρ m' c) : Cert.KernelIdeal.Gen.W4 m ρ c (Proc.devRef .tc Cert.KernelIdeal.main_arg2) = U4 m' c (Proc.devRef .tc Cert.ReferenceIdeal.main_arg2) :=
  (Cert.KernelIdeal.Fold.W4_arg2 m ρ c).trans ((s3_arg2 h).trans rfl)

theorem s4_arg3 (h : Agree m ρ m' c) : Cert.KernelIdeal.Gen.W4 m ρ c (Proc.devRef .tc Cert.KernelIdeal.main_arg3) = U4 m' c (Proc.devRef .tc Cert.ReferenceIdeal.main_arg3) :=
  (Cert.KernelIdeal.Fold.W4_arg3 m ρ c).trans ((s3_arg3 h).trans rfl)

theorem s4_arg4 (h : Agree m ρ m' c) : Cert.KernelIdeal.Gen.W4 m ρ c (Proc.devRef .tc Cert.KernelIdeal.main_arg4) = U4 m' c (Proc.devRef .tc Cert.ReferenceIdeal.main_arg4) :=
  (Cert.KernelIdeal.Fold.W4_arg4 m ρ c).trans ((s3_arg4 h).trans rfl)

/-! ## Stage 3: the first layer's aggregation -/

variable (m ρ c) in
/-- The buffers read after this boundary, overwritten with the kernel program's values there. -/
abbrev seed4 : List (HloOp Cert.ReferenceIdeal.τ Cert.ReferenceIdeal.sig (Elt Ideal)) :=
  [nullary Cert.ReferenceIdeal.main_v32 (Cert.KernelIdeal.Gen.W4 m ρ c (Proc.devRef .tc Cert.KernelIdeal.main_v32)),
   nullary Cert.ReferenceIdeal.main_v31 (Cert.KernelIdeal.Gen.W4 m ρ c (Proc.devRef .tc Cert.KernelIdeal.main_v31)),
   nullary Cert.ReferenceIdeal.main_v3 (Cert.KernelIdeal.Gen.W4 m ρ c (Proc.devRef .tc Cert.KernelIdeal.main_v3)),
   nullary Cert.ReferenceIdeal.main_v6 (Cert.KernelIdeal.Gen.W4 m ρ c (Proc.devRef .tc Cert.KernelIdeal.main_v6)),
   nullary Cert.ReferenceIdeal.main_arg2 (Cert.KernelIdeal.Gen.W4 m ρ c (Proc.devRef .tc Cert.KernelIdeal.main_arg2)),
   nullary Cert.ReferenceIdeal.main_arg3 (Cert.KernelIdeal.Gen.W4 m ρ c (Proc.devRef .tc Cert.KernelIdeal.main_arg3)),
   nullary Cert.ReferenceIdeal.main_arg4 (Cert.KernelIdeal.Gen.W4 m ρ c (Proc.devRef .tc Cert.KernelIdeal.main_arg4))]

/-- The reference's contents at this boundary are unchanged by that overwriting: the two programs agree there. -/
theorem U4_seed (h : Agree m ρ m' c) : after (seed4 m ρ c) (U4 m' c) = U4 m' c := by
  simp only [after_cons, after_nil]
  rw [nullary_result_self _ _ _ (U4 m' c) (s4_v32 h),
    nullary_result_self _ _ _ (U4 m' c) (s4_v31 h),
    nullary_result_self _ _ _ (U4 m' c) (s4_v3 h),
    nullary_result_self _ _ _ (U4 m' c) (s4_v6 h),
    nullary_result_self _ _ _ (U4 m' c) (s4_arg2 h),
    nullary_result_self _ _ _ (U4 m' c) (s4_arg3 h),
    nullary_result_self _ _ _ (U4 m' c) (s4_arg4 h)]

set_option maxHeartbeats 4000000 in
theorem s5_v48 (h : Agree m ρ m' c) : Cert.KernelIdeal.Gen.W5 m ρ c (Proc.devRef .tc Cert.KernelIdeal.main_v48) = U5 m' c (Proc.devRef .tc Cert.ReferenceIdeal.main_v48) :=
  (show Cert.KernelIdeal.Gen.W5 m ρ c (Proc.devRef .tc Cert.KernelIdeal.main_v48) = after Cert.ReferenceIdeal.ValueP.opsMid (after (seed4 m ρ c) (U4 m' c)) (Proc.devRef .tc Cert.ReferenceIdeal.main_v48) from rfl).trans
    (congrArg (fun V => after Cert.ReferenceIdeal.ValueP.opsMid V (Proc.devRef .tc Cert.ReferenceIdeal.main_v48)) (U4_seed h))

set_option maxHeartbeats 4000000 in
theorem s5_v31 (h : Agree m ρ m' c) : Cert.KernelIdeal.Gen.W5 m ρ c (Proc.devRef .tc Cert.KernelIdeal.main_v31) = U5 m' c (Proc.devRef .tc Cert.ReferenceIdeal.main_v31) :=
  (show Cert.KernelIdeal.Gen.W5 m ρ c (Proc.devRef .tc Cert.KernelIdeal.main_v31) = after Cert.ReferenceIdeal.ValueP.opsMid (after (seed4 m ρ c) (U4 m' c)) (Proc.devRef .tc Cert.ReferenceIdeal.main_v31) from rfl).trans
    (congrArg (fun V => after Cert.ReferenceIdeal.ValueP.opsMid V (Proc.devRef .tc Cert.ReferenceIdeal.main_v31)) (U4_seed h))

set_option maxHeartbeats 4000000 in
theorem s5_v3 (h : Agree m ρ m' c) : Cert.KernelIdeal.Gen.W5 m ρ c (Proc.devRef .tc Cert.KernelIdeal.main_v3) = U5 m' c (Proc.devRef .tc Cert.ReferenceIdeal.main_v3) :=
  (show Cert.KernelIdeal.Gen.W5 m ρ c (Proc.devRef .tc Cert.KernelIdeal.main_v3) = after Cert.ReferenceIdeal.ValueP.opsMid (after (seed4 m ρ c) (U4 m' c)) (Proc.devRef .tc Cert.ReferenceIdeal.main_v3) from rfl).trans
    (congrArg (fun V => after Cert.ReferenceIdeal.ValueP.opsMid V (Proc.devRef .tc Cert.ReferenceIdeal.main_v3)) (U4_seed h))

set_option maxHeartbeats 4000000 in
theorem s5_v6 (h : Agree m ρ m' c) : Cert.KernelIdeal.Gen.W5 m ρ c (Proc.devRef .tc Cert.KernelIdeal.main_v6) = U5 m' c (Proc.devRef .tc Cert.ReferenceIdeal.main_v6) :=
  (show Cert.KernelIdeal.Gen.W5 m ρ c (Proc.devRef .tc Cert.KernelIdeal.main_v6) = after Cert.ReferenceIdeal.ValueP.opsMid (after (seed4 m ρ c) (U4 m' c)) (Proc.devRef .tc Cert.ReferenceIdeal.main_v6) from rfl).trans
    (congrArg (fun V => after Cert.ReferenceIdeal.ValueP.opsMid V (Proc.devRef .tc Cert.ReferenceIdeal.main_v6)) (U4_seed h))

set_option maxHeartbeats 4000000 in
theorem s5_arg3 (h : Agree m ρ m' c) : Cert.KernelIdeal.Gen.W5 m ρ c (Proc.devRef .tc Cert.KernelIdeal.main_arg3) = U5 m' c (Proc.devRef .tc Cert.ReferenceIdeal.main_arg3) :=
  (show Cert.KernelIdeal.Gen.W5 m ρ c (Proc.devRef .tc Cert.KernelIdeal.main_arg3) = after Cert.ReferenceIdeal.ValueP.opsMid (after (seed4 m ρ c) (U4 m' c)) (Proc.devRef .tc Cert.ReferenceIdeal.main_arg3) from rfl).trans
    (congrArg (fun V => after Cert.ReferenceIdeal.ValueP.opsMid V (Proc.devRef .tc Cert.ReferenceIdeal.main_arg3)) (U4_seed h))

set_option maxHeartbeats 4000000 in
theorem s5_arg4 (h : Agree m ρ m' c) : Cert.KernelIdeal.Gen.W5 m ρ c (Proc.devRef .tc Cert.KernelIdeal.main_arg4) = U5 m' c (Proc.devRef .tc Cert.ReferenceIdeal.main_arg4) :=
  (show Cert.KernelIdeal.Gen.W5 m ρ c (Proc.devRef .tc Cert.KernelIdeal.main_arg4) = after Cert.ReferenceIdeal.ValueP.opsMid (after (seed4 m ρ c) (U4 m' c)) (Proc.devRef .tc Cert.ReferenceIdeal.main_arg4) from rfl).trans
    (congrArg (fun V => after Cert.ReferenceIdeal.ValueP.opsMid V (Proc.devRef .tc Cert.ReferenceIdeal.main_arg4)) (U4_seed h))

/-! ## Stage 4: the second matrix product -/

/-- The kernel's result array is the host's product of the two arrays it was given, and those agree. -/
theorem s6_v49 (h : Agree m ρ m' c) : Cert.KernelIdeal.Gen.W6 m ρ c (Proc.devRef .tc Cert.KernelIdeal.main_v49) = U6 m' c (Proc.devRef .tc Cert.ReferenceIdeal.main_v49) := by
  rw [Cert.KernelIdeal.Fold.W6_v49, s5_v48 h, s5_arg3 h]
  rfl

theorem s6_v48 (h : Agree m ρ m' c) : Cert.KernelIdeal.Gen.W6 m ρ c (Proc.devRef .tc Cert.KernelIdeal.main_v48) = U6 m' c (Proc.devRef .tc Cert.ReferenceIdeal.main_v48) :=
  (Cert.KernelIdeal.Fold.W6_v48 m ρ c).trans ((s5_v48 h).trans rfl)

theorem s6_v31 (h : Agree m ρ m' c) : Cert.KernelIdeal.Gen.W6 m ρ c (Proc.devRef .tc Cert.KernelIdeal.main_v31) = U6 m' c (Proc.devRef .tc Cert.ReferenceIdeal.main_v31) :=
  (Cert.KernelIdeal.Fold.W6_v31 m ρ c).trans ((s5_v31 h).trans rfl)

theorem s6_v3 (h : Agree m ρ m' c) : Cert.KernelIdeal.Gen.W6 m ρ c (Proc.devRef .tc Cert.KernelIdeal.main_v3) = U6 m' c (Proc.devRef .tc Cert.ReferenceIdeal.main_v3) :=
  (Cert.KernelIdeal.Fold.W6_v3 m ρ c).trans ((s5_v3 h).trans rfl)

theorem s6_v6 (h : Agree m ρ m' c) : Cert.KernelIdeal.Gen.W6 m ρ c (Proc.devRef .tc Cert.KernelIdeal.main_v6) = U6 m' c (Proc.devRef .tc Cert.ReferenceIdeal.main_v6) :=
  (Cert.KernelIdeal.Fold.W6_v6 m ρ c).trans ((s5_v6 h).trans rfl)

theorem s6_arg4 (h : Agree m ρ m' c) : Cert.KernelIdeal.Gen.W6 m ρ c (Proc.devRef .tc Cert.KernelIdeal.main_arg4) = U6 m' c (Proc.devRef .tc Cert.ReferenceIdeal.main_arg4) :=
  (Cert.KernelIdeal.Fold.W6_arg4 m ρ c).trans ((s5_arg4 h).trans rfl)

/-! ## Stage 5: the second layer's aggregation -/

variable (m ρ c) in
/-- The buffers read after this boundary, overwritten with the kernel program's values there. -/
abbrev seed6 : List (HloOp Cert.ReferenceIdeal.τ Cert.ReferenceIdeal.sig (Elt Ideal)) :=
  [nullary Cert.ReferenceIdeal.main_v49 (Cert.KernelIdeal.Gen.W6 m ρ c (Proc.devRef .tc Cert.KernelIdeal.main_v49)),
   nullary Cert.ReferenceIdeal.main_v48 (Cert.KernelIdeal.Gen.W6 m ρ c (Proc.devRef .tc Cert.KernelIdeal.main_v48)),
   nullary Cert.ReferenceIdeal.main_v31 (Cert.KernelIdeal.Gen.W6 m ρ c (Proc.devRef .tc Cert.KernelIdeal.main_v31)),
   nullary Cert.ReferenceIdeal.main_v3 (Cert.KernelIdeal.Gen.W6 m ρ c (Proc.devRef .tc Cert.KernelIdeal.main_v3)),
   nullary Cert.ReferenceIdeal.main_v6 (Cert.KernelIdeal.Gen.W6 m ρ c (Proc.devRef .tc Cert.KernelIdeal.main_v6)),
   nullary Cert.ReferenceIdeal.main_arg4 (Cert.KernelIdeal.Gen.W6 m ρ c (Proc.devRef .tc Cert.KernelIdeal.main_arg4))]

/-- The reference's contents at this boundary are unchanged by that overwriting: the two programs agree there. -/
theorem U6_seed (h : Agree m ρ m' c) : after (seed6 m ρ c) (U6 m' c) = U6 m' c := by
  simp only [after_cons, after_nil]
  rw [nullary_result_self _ _ _ (U6 m' c) (s6_v49 h),
    nullary_result_self _ _ _ (U6 m' c) (s6_v48 h),
    nullary_result_self _ _ _ (U6 m' c) (s6_v31 h),
    nullary_result_self _ _ _ (U6 m' c) (s6_v3 h),
    nullary_result_self _ _ _ (U6 m' c) (s6_v6 h),
    nullary_result_self _ _ _ (U6 m' c) (s6_arg4 h)]

set_option maxHeartbeats 4000000 in
theorem s7_v65 (h : Agree m ρ m' c) : Cert.KernelIdeal.Gen.W7 m ρ c (Proc.devRef .tc Cert.KernelIdeal.main_v65) = U7 m' c (Proc.devRef .tc Cert.ReferenceIdeal.main_v65) :=
  (show Cert.KernelIdeal.Gen.W7 m ρ c (Proc.devRef .tc Cert.KernelIdeal.main_v65) = after Cert.ReferenceIdeal.ValueP.opsPost (after (seed6 m ρ c) (U6 m' c)) (Proc.devRef .tc Cert.ReferenceIdeal.main_v65) from rfl).trans
    (congrArg (fun V => after Cert.ReferenceIdeal.ValueP.opsPost V (Proc.devRef .tc Cert.ReferenceIdeal.main_v65)) (U6_seed h))

set_option maxHeartbeats 4000000 in
theorem s7_v48 (h : Agree m ρ m' c) : Cert.KernelIdeal.Gen.W7 m ρ c (Proc.devRef .tc Cert.KernelIdeal.main_v48) = U7 m' c (Proc.devRef .tc Cert.ReferenceIdeal.main_v48) :=
  (show Cert.KernelIdeal.Gen.W7 m ρ c (Proc.devRef .tc Cert.KernelIdeal.main_v48) = after Cert.ReferenceIdeal.ValueP.opsPost (after (seed6 m ρ c) (U6 m' c)) (Proc.devRef .tc Cert.ReferenceIdeal.main_v48) from rfl).trans
    (congrArg (fun V => after Cert.ReferenceIdeal.ValueP.opsPost V (Proc.devRef .tc Cert.ReferenceIdeal.main_v48)) (U6_seed h))

/-! ## Stage 6: the log-softmax -/

variable (m ρ c) in
/-- The buffers read after this boundary, overwritten with the kernel program's values there. -/
abbrev seed7 : List (HloOp Cert.ReferenceIdeal.τ Cert.ReferenceIdeal.sig (Elt Ideal)) :=
  [nullary Cert.ReferenceIdeal.main_v65 (Cert.KernelIdeal.Gen.W7 m ρ c (Proc.devRef .tc Cert.KernelIdeal.main_v65)),
   nullary Cert.ReferenceIdeal.main_v48 (Cert.KernelIdeal.Gen.W7 m ρ c (Proc.devRef .tc Cert.KernelIdeal.main_v48))]

/-- The reference's contents at this boundary are unchanged by that overwriting: the two programs agree there. -/
theorem U7_seed (h : Agree m ρ m' c) : after (seed7 m ρ c) (U7 m' c) = U7 m' c := by
  simp only [after_cons, after_nil]
  rw [nullary_result_self _ _ _ (U7 m' c) (s7_v65 h),
    nullary_result_self _ _ _ (U7 m' c) (s7_v48 h)]

set_option maxHeartbeats 4000000 in
theorem s8_v66 (h : Agree m ρ m' c) : Cert.KernelIdeal.Gen.W8 m ρ c (Proc.devRef .tc Cert.KernelIdeal.main_v66) = U8 m' c (Proc.devRef .tc Cert.ReferenceIdeal.main_v66) :=
  (show Cert.KernelIdeal.Gen.W8 m ρ c (Proc.devRef .tc Cert.KernelIdeal.main_v66) = after Cert.ReferenceIdeal.ValueP.opsTail (after (seed7 m ρ c) (U7 m' c)) (Proc.devRef .tc Cert.ReferenceIdeal.main_v66) from rfl).trans
    (congrArg (fun V => after Cert.ReferenceIdeal.ValueP.opsTail V (Proc.devRef .tc Cert.ReferenceIdeal.main_v66)) (U7_seed h))

set_option maxHeartbeats 4000000 in
theorem s8_v48 (h : Agree m ρ m' c) : Cert.KernelIdeal.Gen.W8 m ρ c (Proc.devRef .tc Cert.KernelIdeal.main_v48) = U8 m' c (Proc.devRef .tc Cert.ReferenceIdeal.main_v48) :=
  (show Cert.KernelIdeal.Gen.W8 m ρ c (Proc.devRef .tc Cert.KernelIdeal.main_v48) = after Cert.ReferenceIdeal.ValueP.opsTail (after (seed7 m ρ c) (U7 m' c)) (Proc.devRef .tc Cert.ReferenceIdeal.main_v48) from rfl).trans
    (congrArg (fun V => after Cert.ReferenceIdeal.ValueP.opsTail V (Proc.devRef .tc Cert.ReferenceIdeal.main_v48)) (U7_seed h))

end Cert.Bridge

end
-- ==== Proof.lean ====
/-
  The certificate: a graph-convolution network whose two dense matrix products run as row-blocked kernels, against the
  same network with the host's matrix products.

  Both programs compute, from node features x, two weight matrices and biases, edge weights and an edge list:
  the edge lists with self loops, the degree-normalised edge weights, h₁ = x · W₁, the first layer
  x₁ = Σ_edges norm · h₁[row] scattered by target + b₁, h₂ = x₁ · W₂, the second layer x₂ likewise, and the row-wise
  log-softmax of x₂; they return that and x₁. The kernel program computes h₁ and h₂ by a kernel that walks the rows in
  blocks (20 blocks of 5000 rows, then 10 blocks of 10000), rounding the operands to bf16 and accumulating each
  block's product from zero; the reference applies the host's matrix product. On the extended reals the rounding is the
  identity and each block's product is the corresponding rows of the whole product, so each kernel's result array is the
  host's product of its two operand arrays (Proof/RegionProducts.lean); every other operation is the same in both
  programs and is applied to buffers that agree (Proof/Bridge.lean, stage by stage). No algebraic law is needed, so
  the finiteness of the inputs is never used.

  The idealisation pass rewrote nothing in the kernel program, so the idealised kernel program is the printed one read
  at the extended reals, and that conjunct is trivial.
-/
import proofs.«170331_j59768764892009_1_alg».proof.Defs
import proofs.«170331_j59768764892009_1_alg».proof.Proof.Gen.Kernel
import proofs.«170331_j59768764892009_1_alg».proof.Proof.Gen.Kernel.Skeleton
import proofs.«170331_j59768764892009_1_alg».proof.Proof.Gen.Kernel.Launch
import proofs.«170331_j59768764892009_1_alg».proof.Proof.Gen.Kernel.Points
import proofs.«170331_j59768764892009_1_alg».proof.Proof.Gen.Kernel.Frame
import proofs.«170331_j59768764892009_1_alg».proof.Proof.Gen.KernelIdeal
import proofs.«170331_j59768764892009_1_alg».proof.Proof.Gen.KernelIdeal.Skeleton
import proofs.«170331_j59768764892009_1_alg».proof.Proof.Gen.KernelIdeal.Launch
import proofs.«170331_j59768764892009_1_alg».proof.Proof.Gen.KernelIdeal.Points
import proofs.«170331_j59768764892009_1_alg».proof.Proof.Gen.KernelIdeal.Frame
import proofs.«170331_j59768764892009_1_alg».proof.Proof.Gen.ReferenceIdeal
import proofs.«170331_j59768764892009_1_alg».proof.Proof.Gen.Pre_finite_inputs
import proofs.«170331_j59768764892009_1_alg».proof.Proof.KernelRun
import proofs.«170331_j59768764892009_1_alg».proof.Proof.RefRunPatched
import proofs.«170331_j59768764892009_1_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.StableHlo

/-- The kernel program, as printed, runs and leaves its arguments as launched. -/
theorem frame_kernel : Cert.frame_Kernel := fun m ρ _ => Cert.Kernel.Gen.frame m ρ

/-- So does the kernel program read at the extended reals. -/
theorem frame_kernelIdeal : Cert.frame_KernelIdeal := fun m ρ _ => Cert.KernelIdeal.Gen.frame m ρ

/-- The reference is a straight line of host operations, none of which writes an argument. -/
theorem frame_referenceIdeal : Cert.frame_ReferenceIdeal := fun m ρ _ =>
  (θ_run Cert.ReferenceIdeal.defs _ _).mono (fun _ h c =>
      ⟨(h c Cert.ReferenceIdeal.main_arg0).trans (Cert.ReferenceIdeal.ValueP.kept m c).1,
       (h c Cert.ReferenceIdeal.main_arg1).trans (Cert.ReferenceIdeal.ValueP.kept m c).2.1,
       (h c Cert.ReferenceIdeal.main_arg2).trans (Cert.ReferenceIdeal.ValueP.kept m c).2.2.1,
       (h c Cert.ReferenceIdeal.main_arg3).trans (Cert.ReferenceIdeal.ValueP.kept m c).2.2.2.1,
       (h c Cert.ReferenceIdeal.main_arg4).trans (Cert.ReferenceIdeal.ValueP.kept m c).2.2.2.2.1,
       (h c Cert.ReferenceIdeal.main_arg5).trans (Cert.ReferenceIdeal.ValueP.kept m c).2.2.2.2.2.1,
       (h c Cert.ReferenceIdeal.main_arg6).trans (Cert.ReferenceIdeal.ValueP.kept m c).2.2.2.2.2.2⟩)
    (Cert.ReferenceIdeal.ValueP.run (F := Ideal) m ρ)

/-- The idealisation pass rewrote no operation. -/
theorem preserves : Cert.preserves_Kernel_KernelIdeal := trivial

/-- Run from memories that agree on the arguments, both programs end with the log-softmax of the second layer and
    with the first layer's output at the same contents: the kernel program's, read off its last segment boundary. -/
theorem algebraic : Cert.algebraic_KernelIdeal_ReferenceIdeal := by
  intro m ρ m' ρ' _ hagree
  refine ⟨fun c => Cert.KernelIdeal.Gen.W8 m ρ c (Proc.devRef .tc Cert.KernelIdeal.main_v66),
    fun c => Cert.KernelIdeal.Gen.W8 m ρ c (Proc.devRef .tc Cert.KernelIdeal.main_v48),
    Cert.KernelIdeal.Run.run_main (F := Ideal) m ρ, ?_⟩
  refine (θ_run Cert.ReferenceIdeal.defs _ _).mono (fun _ h c => ?_) (Cert.ReferenceIdeal.ValueP.run (F := Ideal) m' ρ')
  have hA : Cert.Bridge.Agree m ρ m' c :=
    ⟨(hagree c).1, (hagree c).2.1, (hagree c).2.2.1, (hagree c).2.2.2.1, (hagree c).2.2.2.2.1, (hagree c).2.2.2.2.2.1,
      (hagree c).2.2.2.2.2.2⟩
  refine ⟨?_, ?_, (h c Cert.ReferenceIdeal.main_arg0).trans (Cert.ReferenceIdeal.ValueP.kept m' c).1,
    (h c Cert.ReferenceIdeal.main_arg1).trans (Cert.ReferenceIdeal.ValueP.kept m' c).2.1,
    (h c Cert.ReferenceIdeal.main_arg2).trans (Cert.ReferenceIdeal.ValueP.kept m' c).2.2.1,
    (h c Cert.ReferenceIdeal.main_arg3).trans (Cert.ReferenceIdeal.ValueP.kept m' c).2.2.2.1,
    (h c Cert.ReferenceIdeal.main_arg4).trans (Cert.ReferenceIdeal.ValueP.kept m' c).2.2.2.2.1,
    (h c Cert.ReferenceIdeal.main_arg5).trans (Cert.ReferenceIdeal.ValueP.kept m' c).2.2.2.2.2.1,
    (h c Cert.ReferenceIdeal.main_arg6).trans (Cert.ReferenceIdeal.ValueP.kept m' c).2.2.2.2.2.2⟩
  · rw [h c Cert.ReferenceIdeal.main_v66, Cert.Bridge.fold_eq]
    exact (Cert.Bridge.s8_v66 hA).symm
  · rw [h c Cert.ReferenceIdeal.main_v48, Cert.Bridge.fold_eq]
    exact (Cert.Bridge.s8_v48 hA).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
